-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x32x128 : Shape := ⟨3, ![16384, 32, 128]⟩
abbrev S128x128 : Shape := ⟨2, ![128, 128]⟩
abbrev S128x1 : Shape := ⟨2, ![128, 1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x32x128 : S_.BroadcastsInDim S16384x32x128 (![] : Fin 0 → Fin S16384x32x128.rank)
  reducesTo_S16384x32x128_S_d0_1_2 : S16384x32x128.ReducesTo [0, 1, 2] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S16384x128 .f32) (main_arg1 : FVec F S16384x32x128 .f32) (main_arg2 : FVec F S128x128 .f32) (main_arg3 : FVec F S128x128 .f32) (main_arg4 : FVec F S128x1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x32x128 .f32 := Host.absf main_arg1
  let main_cst_0 : FVec F S_ .f32 := constant S_ .f32 0x7F800000#32
  let main_v5 : FVec F S16384x32x128 .f32 := broadcastInDim S16384x32x128 ![] bcast_S_S16384x32x128 main_cst_0
  let main_v6 : IVec S16384x32x128 1 := cmpf .olt main_v4 main_v5
  let main_c_1 : IVec S_ 1 := constantI S_ 1 1#1
  let main_v7 : IVec S_ 1 := (fun x v => Host.reduce IntOp.andi x v reducesTo_S16384x32x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16384x128 : Shape := ⟨2, ![16384, 128]⟩
abbrev S16384x32x128 : Shape := ⟨3, ![16384, 32, 128]⟩
abbrev S128x128 : Shape := ⟨2, ![128, 128]⟩
abbrev S128x1 : Shape := ⟨2, ![128, 1]⟩
abbrev S1x128 : Shape := ⟨2, ![1, 128]⟩
abbrev S256x128 : Shape := ⟨2, ![256, 128]⟩
abbrev S256x32x128 : Shape := ⟨3, ![256, 32, 128]⟩
abbrev S8192x128 : Shape := ⟨2, ![8192, 128]⟩
abbrev S256x1x128 : Shape := ⟨3, ![256, 1, 128]⟩
abbrev S1x1x128 : Shape := ⟨3, ![1, 1, 128]⟩
abbrev S256x32 : Shape := ⟨2, ![256, 32]⟩
abbrev S256 : Shape := ⟨1, ![256]⟩
abbrev S256x1 : Shape := ⟨2, ![256, 1]⟩
abbrev S256x32x1 : Shape := ⟨3, ![256, 32, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x32x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S1x128, .f32⟩
  | .hbm, ⟨6, _⟩ => ⟨S16384x32x128, .f32⟩
  | .local _ .vmem, ⟨0, _⟩ => ⟨S256x128, .f32⟩
  | .local _ .vmem, ⟨1, _⟩ => ⟨S256x128, .f32⟩
  | .local _ .vmem, ⟨2, _⟩ => ⟨S256x32x128, .f32⟩
  | .local _ .vmem, ⟨3, _⟩ => ⟨S256x32x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S256x32x128, .f32⟩
  | .local _ .vmem, ⟨8, _⟩ => ⟨S256x32x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x1_S1x128 : S128x1.ShapeCasts S1x128
  inb_S256x32x128_S256x32x128_0_0_0 : ∀ a, (![0, 0, 0] : Fin 3 → Nat) a + S256x32x128.size a ≤ S256x32x128.size a
  h_S256x32x128 : 0 < S256x32x128.numel
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S256x32x128_S8192x128 : S256x32x128.ShapeCasts S8192x128
  bitsLt_bf16_f32 : FTy.bits .bf16 < FTy.bits .f32
  shapeCasts_S8192x128_S256x32x128 : S8192x128.ShapeCasts S256x32x128
  shapeCasts_S256x128_S256x1x128 : S256x128.ShapeCasts S256x1x128
  broadcasts_S256x1x128_S256x32x128 : S256x1x128.Broadcasts S256x32x128
  shapeCasts_S1x128_S1x1x128 : S1x128.ShapeCasts S1x1x128
  broadcasts_S1x1x128_S256x32x128 : S1x1x128.Broadcasts S256x32x128
  reduces_S256x32x128_S256x32 : S256x32x128.Reduces [2] S256x32
  reduces_S256x32_S256 : S256x32.Reduces [1] S256
  shapeCasts_S256_S256x1 : S256.ShapeCasts S256x1
  broadcasts_S256x1_S256x32 : S256x1.Broadcasts S256x32
  shapeCasts_S256x32_S256x32x1 : S256x32.ShapeCasts S256x32x1
  broadcasts_S256x32x1_S256x32x128 : S256x32x1.Broadcasts S256x32x128
  reduces_S256x32x128_S256x128 : S256x32x128.Reduces [1] S256x128
  dot_S8192x128_S128x128_S8192x128_1_0_0_1_n_n_wf : DotDims.WF S8192x128 S128x128 S8192x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x128.size a ≤ S16384x32x128.size a
  hwx0_1 : ∀ i : grid0.Coords, EltTy.bits .f32 = 32 ∨ (Rect.block (s := S16384x32x128) S256x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32x128.size a ≤ S16384x32x128.size a
  hwx0_5 : ∀ i : grid0.Coords, EltTy.bits .f32 = 32 ∨ (Rect.block (s := S16384x32x128) S256x32x128.size (cc0_transform_5 i) (hinb0_5 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x32x128 : Shape := ⟨3, ![16384, 32, 128]⟩
abbrev S128x128 : Shape := ⟨2, ![128, 128]⟩
abbrev S128x1 : Shape := ⟨2, ![128, 1]⟩
abbrev S16384x1x128 : Shape := ⟨3, ![16384, 1, 128]⟩
abbrev S16384x32x1 : Shape := ⟨3, ![16384, 32, 1]⟩
abbrev S16384x32 : Shape := ⟨2, ![16384, 32]⟩
abbrev S_ : Shape := ⟨0, ![]⟩
abbrev S16384 : Shape := ⟨1, ![16384]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x32x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S16384x32x128, .f32⟩
  | .hbm, ⟨6, _⟩ => ⟨S16384x128, .f32⟩
  | .hbm, ⟨7, _⟩ => ⟨S16384x1x128, .f32⟩
  | .hbm, ⟨8, _⟩ => ⟨S16384x32x128, .f32⟩
  | .hbm, ⟨9, _⟩ => ⟨S16384x32x128, .f32⟩
  | .hbm, ⟨10, _⟩ => ⟨S16384x32x128, .f32⟩
  | .hbm, ⟨11, _⟩ => ⟨S16384x32x1, .f32⟩
  | .hbm, ⟨12, _⟩ => ⟨S16384x32, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x32, .f32⟩
  | .hbm, ⟨26, _⟩ => ⟨S16384x32, .f32⟩
  | .hbm, ⟨27, _⟩ => ⟨S16384x32x1, .f32⟩
  | .hbm, ⟨28, _⟩ => ⟨S16384x32x128, .f32⟩
  | .hbm, ⟨29, _⟩ => ⟨S16384x32x128, .f32⟩
  | .hbm, ⟨30, _⟩ => ⟨S_, .f32⟩
  | .hbm, ⟨31, _⟩ => ⟨S16384x128, .f32⟩
  | .hbm, ⟨32, _⟩ => ⟨S16384x1x128, .f32⟩
  | .hbm, ⟨33, _⟩ => ⟨S16384x32x128, .f32⟩
  | .hbm, ⟨34, _⟩ => ⟨S16384x32x128, .f32⟩
  | .hbm, ⟨35, _⟩ => ⟨S16384x32x128, .f32⟩
  | .hbm, ⟨36, _⟩ => ⟨S16384x32x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S16384x128_S16384x1x128_0_2 : S16384x128.BroadcastsInDim S16384x1x128 (![0, 2] : Fin 2 → Fin S16384x1x128.rank)
  bcast_S16384x1x128_S16384x32x128_0_1_2 : S16384x1x128.BroadcastsInDim S16384x32x128 (![0, 1, 2] : Fin 3 → Fin S16384x32x128.rank)
  shapeCasts_S16384x32x1_S16384x32 : S16384x32x1.ShapeCasts S16384x32
  reducesTo_S16384x32_S16384_d1 : S16384x32.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  bcast_S16384x32_S16384x32x1_0_1 : S16384x32.BroadcastsInDim S16384x32x1 (![0, 1] : Fin 2 → Fin S16384x32x1.rank)
  bcast_S16384x32x1_S16384x32x128_0_1_2 : S16384x32x1.BroadcastsInDim S16384x32x128 (![0, 1, 2] : Fin 3 → Fin S16384x32x128.rank)
  reducesTo_S16384x32x128_S16384x128_d1 : S16384x32x128.ReducesTo [1] S16384x128
  dot_S16384x32x128_S128x128_S16384x32x128_2_0_01_1_n_n_wf : DotDims.WF S16384x32x128 S128x128 S16384x32x128 [2] [0] [0, 1] [1] [] []
  dot_S16384x128_S128x128_S16384x128_1_0_0_1_n_n_wf : DotDims.WF S16384x128 S128x128 S16384x128 [1] [0] [0] [1] [] []
  dot_S16384x32x128_S128x1_S16384x32x1_2_0_01_1_n_n_wf : DotDims.WF S16384x32x128 S128x1 S16384x32x1 [2] [0] [0, 1] [1] [] []

variable [Facts₀]

def dot_S16384x32x128_S128x128_S16384x32x128_2_0_01_1_n_n : DotDims S16384x32x128 S128x128 S16384x32x128 where
  lhsContracting := [2]
  rhsContracting := [0]
  lhsNonContracting := [0, 1]
  rhsNonContracting := [1]
  lhsBatch := []
  rhsBatch := []
  wf := dot_S16384x32x128_S128x128_S16384x32x128_2_0_01_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x32x128_S128x1_S16384x32x1_2_0_01_1_n_n : DotDims S16384x32x128 S128x1 S16384x32x1 where
  lhsContracting := [2]
  rhsContracting := [0]
  lhsNonContracting := [0, 1]
  rhsNonContracting := [1]
  lhsBatch := []
  rhsBatch := []
  wf := dot_S16384x32x128_S128x1_S16384x32x1_2_0_01_1_n_n_wf

class Facts : Prop extends Facts₀ where

variable [Facts]
-- ==== Proof.KernelDots.lean ====
/-
  The kernel's two matrix products, read at an index of the result.

  Both are plain row-by-column products with the contraction over the 128 entries of a row: the product of the
  flattened path block (8192 rows, one per batch row and path) with the first weight matrix, and the product of the
  agent block (256 rows) with the second. Each accumulates into a zero splat, so at the ideal values entry (r, i) of
  the result is the bare sum over k of (row r at k) · (column i at k); no accumulator is left in it.
-/
import proofs.«140785_j82952998355465_2_alg».proof.Proof.Gen.KernelIdeal.Skeleton
import Idealize.ShloMosaic.Lib.ValueIdx
import Idealize.ShloMosaic.PureOps.Ideal.Laws

noncomputable section

namespace Cert.KernelIdeal.RowValue

open Cert.KernelIdeal Cert.KernelIdeal.Gen
open Idealize.ShloMosaic Idealize.ShloMosaic.ValueIdx

/-- Coordinate 0 of the left operand's index is the result's row. -/
theorem flatProduct_lhs0 (j : S8192x128.Idx) (q : dot_S8192x128_S128x128_S8192x128_1_0_0_1_n_n.contr.Idx) : (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
/-- Coordinate 1 of the left operand's index is the contraction index. -/
theorem flatProduct_lhs1 (j : S8192x128.Idx) (q : dot_S8192x128_S128x128_S8192x128_1_0_0_1_n_n.contr.Idx) : (dot_S8192x128_S128x128_S8192x128_1_0_0_1_n_n.lhsIdx j q 1).val = (q ⟨0, by decide⟩).val :=
  dot_S8192x128_S128x128_S8192x128_1_0_0_1_n_n.lhsIdx_val_of_single rfl j q
/-- Coordinate 0 of the right operand's index is the contraction index. -/
theorem flatProduct_rhs0 (j : S8192x128.Idx) (q : dot_S8192x128_S128x128_S8192x128_1_0_0_1_n_n.contr.Idx) : (dot_S8192x128_S128x128_S8192x128_1_0_0_1_n_n.rhsIdx j q 0).val = (q ⟨0, by decide⟩).val :=
  dot_S8192x128_S128x128_S8192x128_1_0_0_1_n_n.rhsIdx_val_of_single rfl j q
/-- Coordinate 1 of the right operand's index is the result's column. -/
theorem flatProduct_rhs1 (j : S8192x128.Idx) (q : dot_S8192x128_S128x128_S8192x128_1_0_0_1_n_n.contr.Idx) : (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- Entry (r, i) of the flattened path block times a weight matrix: the sum over k of the block's row r at k times
    the matrix's column i at k. -/
theorem flatProduct_apply (y : FVec Ideal S8192x128 .bf16) (w : FVec Ideal S128x128 .bf16) (r : Fin 8192) (i : Fin 128) :
    matmul dot_S8192x128_S128x128_S8192x128_1_0_0_1_n_n none y w (constant (F := Ideal) S8192x128 .f32 0x00000000#32) (ix2 r i)
      = ∑ k : Fin 128, y (ix2 r k) * w (ix2 k i) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r i) ((contrEquiv1 dot_S8192x128_S128x128_S8192x128_1_0_0_1_n_n 128 rfl rfl).symm k) = ix2 r k :=
    funext fun a => Fin.ext (by
      match a with
      | ⟨0, _⟩ => exact flatProduct_lhs0 _ _
      | ⟨1, _⟩ => exact (flatProduct_lhs1 _ _).trans hk)
  have er : dot_S8192x128_S128x128_S8192x128_1_0_0_1_n_n.rhsIdx (ix2 r i) ((contrEquiv1 dot_S8192x128_S128x128_S8192x128_1_0_0_1_n_n 128 rfl rfl).symm k) = ix2 k i :=
    funext fun a => Fin.ext (by
      match a with
      | ⟨0, _⟩ => exact (flatProduct_rhs0 _ _).trans hk
      | ⟨1, _⟩ => exact flatProduct_rhs1 _ _)
  rw [el, er]

/-- Coordinate 0 of the left operand's index is the result's row. -/
theorem agentProduct_lhs0 (j : S256x128.Idx) (q : dot_S256x128_S128x128_S256x128_1_0_0_1_n_n.contr.Idx) : (dot_S256x128_S128x128_S256x128_1_0_0_1_n_n.lhsIdx j q 0).val = (j 0).val := by
  unfold DotDims.lhsIdx
  rw [dif_neg (show ¬(0 : Fin S256x128.rank) ∈ dot_S256x128_S128x128_S256x128_1_0_0_1_n_n.lhsBatch by decide),
    dif_pos (show (0 : Fin S256x128.rank) ∈ dot_S256x128_S128x128_S256x128_1_0_0_1_n_n.lhsNonContracting by decide)]
  rfl
/-- Coordinate 1 of the left operand's index is the contraction index. -/
theorem agentProduct_lhs1 (j : S256x128.Idx) (q : dot_S256x128_S128x128_S256x128_1_0_0_1_n_n.contr.Idx) : (dot_S256x128_S128x128_S256x128_1_0_0_1_n_n.lhsIdx j q 1).val = (q ⟨0, by decide⟩).val :=
  dot_S256x128_S128x128_S256x128_1_0_0_1_n_n.lhsIdx_val_of_single rfl j q
/-- Coordinate 0 of the right operand's index is the contraction index. -/
theorem agentProduct_rhs0 (j : S256x128.Idx) (q : dot_S256x128_S128x128_S256x128_1_0_0_1_n_n.contr.Idx) : (dot_S256x128_S128x128_S256x128_1_0_0_1_n_n.rhsIdx j q 0).val = (q ⟨0, by decide⟩).val :=
  dot_S256x128_S128x128_S256x128_1_0_0_1_n_n.rhsIdx_val_of_single rfl j q
/-- Coordinate 1 of the right operand's index is the result's column. -/
theorem agentProduct_rhs1 (j : S256x128.Idx) (q : dot_S256x128_S128x128_S256x128_1_0_0_1_n_n.contr.Idx) : (dot_S256x128_S128x128_S256x128_1_0_0_1_n_n.rhsIdx j q 1).val = (j 1).val := by
  unfold DotDims.rhsIdx
  rw [dif_neg (show ¬(1 : Fin S128x128.rank) ∈ dot_S256x128_S128x128_S256x128_1_0_0_1_n_n.rhsBatch by decide),
    dif_pos (show (1 : Fin S128x128.rank) ∈ dot_S256x128_S128x128_S256x128_1_0_0_1_n_n.rhsNonContracting by decide)]
  rfl

/-- Entry (b, i) of the agent block times a weight matrix: the sum over k of agent row b at k times the matrix's
    column i at k. -/
theorem agentProduct_apply (y : FVec Ideal S256x128 .bf16) (w : FVec Ideal S128x128 .bf16) (r : Fin 256) (i : Fin 128) :
    matmul dot_S256x128_S128x128_S256x128_1_0_0_1_n_n none y w (constant (F := Ideal) S256x128 .f32 0x00000000#32) (ix2 r i)
      = ∑ k : Fin 128, y (ix2 r k) * w (ix2 k i) := by
  simp only [matmul]
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 r i) ((contrEquiv1 dot_S256x128_S128x128_S256x128_1_0_0_1_n_n 128 rfl rfl).symm k) = ix2 r k :=
    funext fun a => Fin.ext (by
      match a with
      | ⟨0, _⟩ => exact agentProduct_lhs0 _ _
      | ⟨1, _⟩ => exact (agentProduct_lhs1 _ _).trans hk)
  have er : dot_S256x128_S128x128_S256x128_1_0_0_1_n_n.rhsIdx (ix2 r i) ((contrEquiv1 dot_S256x128_S128x128_S256x128_1_0_0_1_n_n 128 rfl rfl).symm k) = ix2 k i :=
    funext fun a => Fin.ext (by
      match a with
      | ⟨0, _⟩ => exact (agentProduct_rhs0 _ _).trans hk
      | ⟨1, _⟩ => exact agentProduct_rhs1 _ _)
  rw [el, er]

end Cert.KernelIdeal.RowValue

end
-- ==== Proof.AttnSpec.lean ====
/-
  The function both programs compute, written once, row by row.

  Fix one batch row: its 32 path vectors `L p` (each of 128 entries), its agent vector `a` (128 entries), the two
  128 × 128 weight matrices `W1`, `W2` and the scoring vector `v`. Additive attention over the paths of that row is

    score p   = Σ_i tanh (Σ_d L p d · W1 d i + Σ_d a d · W2 d i) · v i
    top       = the largest score, taken as a fold of `max` from the bottom element −∞
    expd p    = exp (score p − top)
    prob p    = expd p / Σ_q expd q
    out p j   = Σ_q L q j · prob q  −  L p j · prob p

  Every sum is a finite sum of extended reals and every operation is the exact one on the extended reals, so the
  definitions make sense at the infinities too; nothing here needs the entries to be finite. The whole output array is
  this function applied at each batch row to that row's slices of the argument arrays (`whole`).
-/
import Idealize.ShloMosaic.PureOps.Ideal
import Idealize.ShloMosaic.Lib.ValueIdx

noncomputable section

namespace Cert.AttnSpec

open Idealize.ShloMosaic Idealize.ShloMosaic.ValueIdx

/-- The bottom element the running maximum starts from: the f32 word of −∞, read at the ideal values. It is the
    same word in both programs and is never evaluated. -/
abbrev floorWord : EReal := Ideal.ofBits .f32 0xFF800000#32

/-- The score of path `p`: the hidden vector `tanh (L p · W1 + a · W2)` paired with `v`. -/
def score (L : Fin 32 → Fin 128 → EReal) (a : Fin 128 → EReal) (W1 W2 : Fin 128 → Fin 128 → EReal)
    (v : Fin 128 → EReal) (p : Fin 32) : EReal :=
  ∑ i : Fin 128, Ideal.tanh ((∑ d : Fin 128, L p d * W1 d i) + ∑ d : Fin 128, a d * W2 d i) * v i

/-- The largest of 32 scores, as the fold of `max` from −∞. -/
def top (s : Fin 32 → EReal) : EReal := (Finset.univ : Finset (Fin 32)).fold max floorWord s

/-- The shifted exponential of a score. -/
def expd (s : Fin 32 → EReal) (p : Fin 32) : EReal := Ideal.exp (s p - top s)

/-- The softmax weight of path `p`. -/
def prob (s : Fin 32 → EReal) (p : Fin 32) : EReal := Ideal.div (expd s p) (∑ q : Fin 32, expd s q)

/-- The weighted mean of the paths, minus path `p`'s own weighted vector, at entry `j`. -/
def mix (L : Fin 32 → Fin 128 → EReal) (w : Fin 32 → EReal) (p : Fin 32) (j : Fin 128) : EReal :=
  (∑ q : Fin 32, L q j * w q) - L p j * w p

/-- One batch row of the result. -/
def row (L : Fin 32 → Fin 128 → EReal) (a : Fin 128 → EReal) (W1 W2 : Fin 128 → Fin 128 → EReal)
    (v : Fin 128 → EReal) (p : Fin 32) (j : Fin 128) : EReal :=
  mix L (prob (score L a W1 W2 v)) p j

/-- The whole result array as one function of the five argument arrays: at index (b, p, j), row `b`'s function of
    the row-`b` slices of `lane` and `agent`, of the weights, and of the column vector `v` read down its one column. -/
def whole (agent : (⟨2, ![16384, 128]⟩ : Shape).Idx → EReal) (lane : (⟨3, ![16384, 32, 128]⟩ : Shape).Idx → EReal)
    (w1 w2 : (⟨2, ![128, 128]⟩ : Shape).Idx → EReal) (v : (⟨2, ![128, 1]⟩ : Shape).Idx → EReal) :
    (⟨3, ![16384, 32, 128]⟩ : Shape).Idx → EReal :=
  fun i => row (fun p d => lane (ix3 (i 0 : Fin 16384) p d)) (fun d => agent (ix2 (i 0 : Fin 16384) d))
    (fun d k => w1 (ix2 d k)) (fun d k => w2 (ix2 d k)) (fun k => v (ix2 k (0 : Fin 1))) (i 1) (i 2)

end Cert.AttnSpec

end
-- ==== Proof.KernelLayout.lean ====
/-
  The kernel body's re-layings and reductions, each read at one index.

  The body moves values between the three-axis block (batch row, path, entry) and flatter shapes: it flattens
  (row, path) into one axis of 8192 for the first matrix product and splits it again; it lays a per-(row, entry) value
  along the paths, a per-entry vector along rows and paths, a per-row value along the paths, and a per-(row, path)
  value along the entries — each time through a cast that inserts a unit axis followed by a broadcast. Read at an
  index, each of these is the operand at the index with the inserted axis dropped. The body's four reductions run
  over ONE axis: at the ideal values a sum is the finite sum over that axis's coordinates, and the maximum is the fold
  of `max` over them from the accumulator's value.
-/
import proofs.«140785_j82952998355465_2_alg».proof.Proof.Gen.KernelIdeal.Skeleton
import proofs.«140785_j82952998355465_2_alg».proof.Proof.AttnSpec
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen
open Idealize.ShloMosaic Idealize.ShloMosaic.ValueIdx

variable {α : Type}

/-! ## Re-layings -/

/-- Flattening (row, path) into one axis: flat row `b · 32 + p` at `k` is the block at (b, p, k). -/
theorem flatten_apply (x : S256x32x128.Idx → α) (b : Fin 256) (p : Fin 32) (k : Fin 128) (r : Fin 8192)
    (hr : r.val = b.val * 32 + p.val) :
    shapeCast S8192x128 x shapeCasts_S256x32x128_S8192x128 (ix2 r k) = x (ix3 b p k) :=
  shapeCast_apply x shapeCasts_S256x32x128_S8192x128 (ix2 r k) (ix3 b p k) (by
    rw [Shape.rowMajor_val_three, Shape.rowMajor_val_two]
    show (b.val * 32 + p.val) * 128 + k.val = r.val * 128 + k.val
    rw [hr])

/-- Splitting the flat axis again: (b, p, i) reads flat row `b · 32 + p` at `i`. -/
theorem unflatten_apply (y : S8192x128.Idx → α) (b : Fin 256) (p : Fin 32) (i : Fin 128) (r : Fin 8192)
    (hr : r.val = b.val * 32 + p.val) :
    shapeCast S256x32x128 y shapeCasts_S8192x128_S256x32x128 (ix3 b p i) = y (ix2 r i) :=
  shapeCast_apply y shapeCasts_S8192x128_S256x32x128 (ix3 b p i) (ix2 r i) (by
    rw [Shape.rowMajor_val_three, Shape.rowMajor_val_two]
    show r.val * 128 + i.val = (b.val * 32 + p.val) * 128 + i.val
    rw [hr])

/-- A per-(row, entry) value laid along the paths. -/
theorem alongPaths_apply (y : S256x128.Idx → α) (b : Fin 256) (p : Fin 32) (i : Fin 128) :
    broadcastTo S256x32x128 (shapeCast S256x1x128 y shapeCasts_S256x128_S256x1x128) broadcasts_S256x1x128_S256x32x128
      (ix3 b p i) = y (ix2 b i) := by
  refine (broadcastTo_apply _ broadcasts_S256x1x128_S256x32x128 (ix3 b p i) (ix3 b (0 : Fin 1) i) (fun a => by
    match a with
    | ⟨0, _⟩ => rfl
    | ⟨1, _⟩ => rfl
    | ⟨2, _⟩ => rfl)).trans ?_
  exact shapeCast_apply y shapeCasts_S256x128_S256x1x128 (ix3 b (0 : Fin 1) i) (ix2 b i) (by
    rw [Shape.rowMajor_val_three, Shape.rowMajor_val_two]
    show b.val * 128 + i.val = (b.val * 1 + 0) * 128 + i.val
    omega)

/-- A one-row vector laid along rows and paths. -/
theorem everywhere_apply (x : S1x128.Idx → α) (b : Fin 256) (p : Fin 32) (i : Fin 128) :
    broadcastTo S256x32x128
        (shapeCast S1x1x128 (shapeCast S1x128 x shapeCasts_S1x128_S1x128) shapeCasts_S1x128_S1x1x128)
        broadcasts_S1x1x128_S256x32x128 (ix3 b p i)
      = x (ix2 (0 : Fin 1) i) := by
  refine (broadcastTo_apply _ broadcasts_S1x1x128_S256x32x128 (ix3 b p i) (ix3 (0 : Fin 1) (0 : Fin 1) i) (fun a => by
    match a with
    | ⟨0, _⟩ => rfl
    | ⟨1, _⟩ => rfl
    | ⟨2, _⟩ => rfl)).trans ?_
  refine (shapeCast_apply _ shapeCasts_S1x128_S1x1x128 (ix3 (0 : Fin 1) (0 : Fin 1) i) (ix2 (0 : Fin 1) i) (by
    rw [Shape.rowMajor_val_three, Shape.rowMajor_val_two]
    show 0 * 128 + i.val = (0 * 1 + 0) * 128 + i.val
    omega)).trans ?_
  exact shapeCast_apply x shapeCasts_S1x128_S1x128 (ix2 (0 : Fin 1) i) (ix2 (0 : Fin 1) i) rfl

/-- A per-row value laid along the paths. -/
theorem perRow_apply (y : S256.Idx → α) (b : Fin 256) (p : Fin 32) :
    broadcastTo S256x32 (shapeCast S256x1 y shapeCasts_S256_S256x1) broadcasts_S256x1_S256x32 (ix2 b p) = y (ix1 b) := by
  refine (broadcastTo_apply _ broadcasts_S256x1_S256x32 (ix2 b p) (ix2 b (0 : Fin 1)) (fun a => by
    match a with
    | ⟨0, _⟩ => rfl
    | ⟨1, _⟩ => rfl)).trans ?_
  exact shapeCast_apply y shapeCasts_S256_S256x1 (ix2 b (0 : Fin 1)) (ix1 b) (by
    rw [Shape.rowMajor_val_two, Shape.rowMajor_val_one]
    show b.val = b.val * 1 + 0
    omega)

/-- A per-(row, path) value laid along the entries. -/
theorem alongEntries_apply (y : S256x32.Idx → α) (b : Fin 256) (p : Fin 32) (j : Fin 128) :
    broadcastTo S256x32x128 (shapeCast S256x32x1 y shapeCasts_S256x32_S256x32x1) broadcasts_S256x32x1_S256x32x128
      (ix3 b p j) = y (ix2 b p) := by
  refine (broadcastTo_apply _ broadcasts_S256x32x1_S256x32x128 (ix3 b p j) (ix3 b p (0 : Fin 1)) (fun a => by
    match a with
    | ⟨0, _⟩ => rfl
    | ⟨1, _⟩ => rfl
    | ⟨2, _⟩ => rfl)).trans ?_
  exact shapeCast_apply y shapeCasts_S256x32_S256x32x1 (ix3 b p (0 : Fin 1)) (ix2 b p) (by
    rw [Shape.rowMajor_val_three, Shape.rowMajor_val_two]
    show b.val * 32 + p.val = (b.val * 32 + p.val) * 1 + 0
    omega)

/-! ## Reductions over one axis -/

/-- The sum over the entries of (row b, path p). -/
theorem entrySum_apply (y : FVec Ideal S256x32x128 .f32) (hφ : FKind.Formats .f32)
    (hacc : (0x00000000#32 : BitVec 32) = FKind.add.neutral .f32 hφ) (b : Fin 256) (p : Fin 32) :
    multiReduction .add [2] S256x32 y 0x00000000#32 reduces_S256x32x128_S256x32 hφ hacc (ix2 b p)
      = ∑ i : Fin 128, y (ix3 b p i) := by
  refine (Ideal.multiReduction_add_single y _ reduces_S256x32x128_S256x32 hφ hacc (ix2 b p)).trans ?_
  refine Finset.sum_congr rfl fun i _ => congrArg y (funext fun a => Fin.ext ?_)
  match a with
  | ⟨0, _⟩ => rfl
  | ⟨1, _⟩ => rfl
  | ⟨2, _⟩ => rfl

/-- The largest value over the paths of row b: the fold of `max` from the accumulator's value. -/
theorem pathMax_apply (s : FVec Ideal S256x32 .f32) (hφ : FKind.Formats .f32)
    (hacc : (0xFF800000#32 : BitVec 32) = FKind.maximumf.neutral .f32 hφ) (b : Fin 256) :
    multiReduction .maximumf [1] S256 s 0xFF800000#32 reduces_S256x32_S256 hφ hacc (ix1 b)
      = Cert.AttnSpec.top (fun p => s (ix2 b p)) := by
  refine (Ideal.multiReduction_maximumf_single s _ reduces_S256x32_S256 hφ hacc (ix1 b)).trans ?_
  unfold Cert.AttnSpec.top
  refine congrArg (fun f : Fin 32 → EReal => (Finset.univ : Finset (Fin 32)).fold max Cert.AttnSpec.floorWord f)
    (funext fun p => congrArg s (funext fun a => Fin.ext ?_))
  match a with
  | ⟨0, _⟩ => rfl
  | ⟨1, _⟩ => rfl

/-- The sum over the paths of row b. -/
theorem pathSum_apply (e : FVec Ideal S256x32 .f32) (hφ : FKind.Formats .f32)
    (hacc : (0x00000000#32 : BitVec 32) = FKind.add.neutral .f32 hφ) (b : Fin 256) :
    multiReduction .add [1] S256 e 0x00000000#32 reduces_S256x32_S256 hφ hacc (ix1 b)
      = ∑ p : Fin 32, e (ix2 b p) := by
  refine (Ideal.multiReduction_add_single e _ reduces_S256x32_S256 hφ hacc (ix1 b)).trans ?_
  refine Finset.sum_congr rfl fun p _ => congrArg e (funext fun a => Fin.ext ?_)
  match a with
  | ⟨0, _⟩ => rfl
  | ⟨1, _⟩ => rfl

/-- The sum over the paths of (row b, entry j). -/
theorem pathSumAt_apply (w : FVec Ideal S256x32x128 .f32) (hφ : FKind.Formats .f32)
    (hacc : (0x00000000#32 : BitVec 32) = FKind.add.neutral .f32 hφ) (b : Fin 256) (j : Fin 128) :
    multiReduction .add [1] S256x128 w 0x00000000#32 reduces_S256x32x128_S256x128 hφ hacc (ix2 b j)
      = ∑ q : Fin 32, w (ix3 b q j) := by
  refine (Ideal.multiReduction_add_single w _ reduces_S256x32x128_S256x128 hφ hacc (ix2 b j)).trans ?_
  refine Finset.sum_congr rfl fun q _ => congrArg w (funext fun a => Fin.ext ?_)
  match a with
  | ⟨0, _⟩ => rfl
  | ⟨1, _⟩ => rfl
  | ⟨2, _⟩ => rfl

end Cert.KernelIdeal.RowValue

end
-- ==== Proof.KernelRow.lean ====
/-
  The kernel body's stored value, read at an index: one batch row of additive attention.

  The body's arithmetic is one pure term of the five blocks it loads (the path block `x0`, the agent block `x1`, the two
  weight matrices `x2`, `x3`, the scoring vector as one row `x4`). It is cut here into five named stages — the scores,
  their shifted exponentials, the softmax weights, the weighted path block, and the mean-minus-own combination — whose
  composition is the printed term. Each stage, read at an index, is the corresponding piece of the row-wise
  specification applied to the slices of row `b`; so entry (b, p, j) of the stored block is the specification's row
  function of row `b`'s slices of the blocks, at (p, j). Only the values of row `b` enter: rows do not mix.
-/
import proofs.«140785_j82952998355465_2_alg».proof.Proof.KernelDots
import proofs.«140785_j82952998355465_2_alg».proof.Proof.KernelLayout

noncomputable section

namespace Cert.KernelIdeal.RowValue

open Cert.KernelIdeal Cert.KernelIdeal.Gen
open Idealize.ShloMosaic Idealize.ShloMosaic.ValueIdx

/-! ## The stages -/

/-- The scores: for each (row, path), the hidden vector `tanh (path · W1 + agent · W2)` paired with the scoring row. -/
def bodyScore (x0 : FVec Ideal S256x32x128 .f32) (x1 : FVec Ideal S256x128 .f32) (x2 x3 : FVec Ideal S128x128 .f32)
    (x4 : FVec Ideal S1x128 .f32) : FVec Ideal S256x32 .f32 :=
  multiReduction .add [2] S256x32
    (mulf
      (tanh (addf
        (shapeCast S256x32x128
          (matmul dot_S8192x128_S128x128_S8192x128_1_0_0_1_n_n none
            (truncf .bf16 (shapeCast S8192x128 x0 shapeCasts_S256x32x128_S8192x128) bitsLt_bf16_f32)
            (truncf .bf16 x2 bitsLt_bf16_f32) (constant S8192x128 .f32 0x00000000#32))
          shapeCasts_S8192x128_S256x32x128)
        (broadcastTo S256x32x128
          (shapeCast S256x1x128
            (matmul dot_S256x128_S128x128_S256x128_1_0_0_1_n_n none (truncf .bf16 x1 bitsLt_bf16_f32)
              (truncf .bf16 x3 bitsLt_bf16_f32) (constant S256x128 .f32 0x00000000#32))
            shapeCasts_S256x128_S256x1x128)
          broadcasts_S256x1x128_S256x32x128)))
      (broadcastTo S256x32x128
        (shapeCast S1x1x128 (shapeCast S1x128 x4 shapeCasts_S1x128_S1x128) shapeCasts_S1x128_S1x1x128)
        broadcasts_S1x1x128_S256x32x128))
    0x00000000#32 reduces_S256x32x128_S256x32 (.inl rfl) rfl

/-- The exponentials of the scores, each row shifted by its largest score. -/
def bodyExp (s : FVec Ideal S256x32 .f32) : FVec Ideal S256x32 .f32 :=
  exp (subf s (broadcastTo S256x32
    (shapeCast S256x1 (multiReduction .maximumf [1] S256 s 0xFF800000#32 reduces_S256x32_S256 (.inl rfl) rfl)
      shapeCasts_S256_S256x1) broadcasts_S256x1_S256x32))

/-- Each exponential divided by its row's sum. -/
def bodyProb (e : FVec Ideal S256x32 .f32) : FVec Ideal S256x32 .f32 :=
  divf e (broadcastTo S256x32
    (shapeCast S256x1 (multiReduction .add [1] S256 e 0x00000000#32 reduces_S256x32_S256 (.inl rfl) rfl)
      shapeCasts_S256_S256x1) broadcasts_S256x1_S256x32)

/-- The path block with each path vector scaled by its weight. -/
def bodyWeighted (x0 : FVec Ideal S256x32x128 .f32) (w : FVec Ideal S256x32 .f32) : FVec Ideal S256x32x128 .f32 :=
  mulf x0 (broadcastTo S256x32x128 (shapeCast S256x32x1 w shapeCasts_S256x32_S256x32x1) broadcasts_S256x32x1_S256x32x128)

/-- The sum over the paths, laid back along the paths, minus the block itself. -/
def bodyMix (u : FVec Ideal S256x32x128 .f32) : FVec Ideal S256x32x128 .f32 :=
  subf (broadcastTo S256x32x128
    (shapeCast S256x1x128
      (multiReduction .add [1] S256x128 u 0x00000000#32 reduces_S256x32x128_S256x128 (.inl rfl) rfl)
      shapeCasts_S256x128_S256x1x128) broadcasts_S256x1x128_S256x32x128) u

/-- The body's stored value is the composition of the stages. -/
theorem pay_eq (x0 : FVec Ideal S256x32x128 .f32) (x1 : FVec Ideal S256x128 .f32) (x2 x3 : FVec Ideal S128x128 .f32)
    (x4 : FVec Ideal S1x128 .f32) :
    k0_pay1 (F := Ideal) x0 x1 x2 x3 x4
      = bodyMix (bodyWeighted x0 (bodyProb (bodyExp (bodyScore x0 x1 x2 x3 x4)))) := rfl

/-! ## Each stage at an index -/

theorem tanh_apply {s : Shape} {φ : FTy} (x : FVec Ideal s φ) (i : s.Idx) : tanh x i = Ideal.tanh (x i) := rfl
theorem exp_apply {s : Shape} {φ : FTy} (x : FVec Ideal s φ) (i : s.Idx) : exp x i = Ideal.exp (x i) := rfl

/-- The score of (row b, path p) is the specification's score of row b's slices. -/
theorem bodyScore_apply (x0 : FVec Ideal S256x32x128 .f32) (x1 : FVec Ideal S256x128 .f32)
    (x2 x3 : FVec Ideal S128x128 .f32) (x4 : FVec Ideal S1x128 .f32) (b : Fin 256) (p : Fin 32) :
    bodyScore x0 x1 x2 x3 x4 (ix2 b p)
      = Cert.AttnSpec.score (fun q d => x0 (ix3 b q d)) (fun d => x1 (ix2 b d)) (fun d k => x2 (ix2 d k))
          (fun d k => x3 (ix2 d k)) (fun k => x4 (ix2 (0 : Fin 1) k)) p := by
  unfold bodyScore Cert.AttnSpec.score
  refine (entrySum_apply _ (.inl rfl) rfl b p).trans ?_
  refine Finset.sum_congr rfl fun i _ => ?_
  have hr : (⟨b.val * 32 + p.val, by have := b.isLt; have := p.isLt; omega⟩ : Fin 8192).val = b.val * 32 + p.val := rfl
  rw [mulf_apply, tanh_apply, addf_apply, unflatten_apply _ b p i _ hr, flatProduct_apply, alongPaths_apply,
    agentProduct_apply, everywhere_apply]
  simp only [truncf_apply, flatten_apply x0 b p _ _ hr]

/-- The shifted exponential of (row b, path p). -/
theorem bodyExp_apply (s : FVec Ideal S256x32 .f32) (b : Fin 256) (p : Fin 32) :
    bodyExp s (ix2 b p) = Cert.AttnSpec.expd (fun q => s (ix2 b q)) p := by
  unfold bodyExp Cert.AttnSpec.expd
  rw [exp_apply, subf_apply, perRow_apply]
  exact congrArg (fun t => Ideal.exp (s (ix2 b p) - t)) (pathMax_apply s (.inl rfl) rfl b)

/-- The weight of (row b, path p): its value over the row's sum. -/
theorem bodyProb_apply (e : FVec Ideal S256x32 .f32) (b : Fin 256) (p : Fin 32) :
    bodyProb e (ix2 b p) = Ideal.div (e (ix2 b p)) (∑ q : Fin 32, e (ix2 b q)) := by
  unfold bodyProb
  rw [divf_apply, perRow_apply]
  exact congrArg (Ideal.div (e (ix2 b p))) (pathSum_apply e (.inl rfl) rfl b)

/-- The weighted block at (b, p, j). -/
theorem bodyWeighted_apply (x0 : FVec Ideal S256x32x128 .f32) (w : FVec Ideal S256x32 .f32) (b : Fin 256) (p : Fin 32)
    (j : Fin 128) : bodyWeighted x0 w (ix3 b p j) = x0 (ix3 b p j) * w (ix2 b p) := by
  unfold bodyWeighted
  rw [mulf_apply, alongEntries_apply]

/-- The combination at (b, p, j): the sum over the paths at entry j, minus path p's own value. -/
theorem bodyMix_apply (u : FVec Ideal S256x32x128 .f32) (b : Fin 256) (p : Fin 32) (j : Fin 128) :
    bodyMix u (ix3 b p j) = (∑ q : Fin 32, u (ix3 b q j)) - u (ix3 b p j) := by
  unfold bodyMix
  rw [subf_apply, alongPaths_apply]
  exact congrArg (fun t => t - u (ix3 b p j)) (pathSumAt_apply u (.inl rfl) rfl b j)

/-! ## The stored block, one row at a time -/

/-- Entry (b, p, j) of the body's stored value is the specification's row function of row b's slices of the loaded
    blocks. -/
theorem pay_row (x0 : FVec Ideal S256x32x128 .f32) (x1 : FVec Ideal S256x128 .f32) (x2 x3 : FVec Ideal S128x128 .f32)
    (x4 : FVec Ideal S1x128 .f32) (b : Fin 256) (p : Fin 32) (j : Fin 128) :
    k0_pay1 (F := Ideal) x0 x1 x2 x3 x4 (ix3 b p j)
      = Cert.AttnSpec.row (fun q d => x0 (ix3 b q d)) (fun d => x1 (ix2 b d)) (fun d k => x2 (ix2 d k))
          (fun d k => x3 (ix2 d k)) (fun k => x4 (ix2 (0 : Fin 1) k)) p j := by
  rw [pay_eq, bodyMix_apply]
  simp only [bodyWeighted_apply, bodyProb_apply, bodyExp_apply, bodyScore_apply]
  rfl

end Cert.KernelIdeal.RowValue

end
-- ==== Proof.Blocks.lean ====
/-
  From the blocks to the whole array.

  The grid has 64 points; point `t` works on batch rows `256 · t … 256 · t + 255`. Its path and agent blocks are
  those rows of the two batched arguments, its weight blocks are the whole weight matrices, and its scoring row is
  the whole one-row array that the host made, before the call, by re-laying the one-column argument `v` as a row. The
  block it writes back is those same 256 rows of the result.

  Because the body's stored value at (r, p, j) depends only on row `r` of its blocks (the row-wise reading of the
  body), what point `t` writes back is exactly rows `256 · t …` of the row-wise specification of the whole argument
  arrays. The 64 blocks tile the result's 16384 rows, so after the run the result array IS the specification.
-/
import proofs.«140785_j82952998355465_2_alg».proof.Proof.Gen.KernelIdeal.Value
import proofs.«140785_j82952998355465_2_alg».proof.Proof.KernelRow
import Idealize.ShloMosaic.Lib.StableHlo.Run

set_option maxRecDepth 16384

noncomputable section

namespace Cert.KernelIdeal.ArrayValue

open Cert.KernelIdeal Cert.KernelIdeal.Gen Cert.KernelIdeal.Value Cert.KernelIdeal.RowValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## Where each window's block sits at a point -/

/-- Decided over the 64 points: the path and agent blocks move with the result's block along the batch axis and
    sit at block 0 on their other axes; the weights' and the scoring row's blocks are always block 0; the result's
    block index is the point's number along the batch axis and 0 on the other two. -/
theorem block_positions : ∀ t : Fin cfg0.N,
    win0_0.index t (0 : Fin 2) = win0_5.index t (0 : Fin 3) ∧ win0_0.index t (1 : Fin 2) = 0
    ∧ win0_1.index t (0 : Fin 3) = win0_5.index t (0 : Fin 3) ∧ win0_1.index t (1 : Fin 3) = 0
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 63 ∧ win0_5.index t (1 : Fin 3) = 0 ∧ win0_5.index t (2 : Fin 3) = 0 :=
  (by decide +kernel : ∀ t : Fin grid0.N, _)

/-- Every one of the 64 row blocks of the result is some point's. -/
theorem block_onto : ∀ q : Fin 64, ∃ t : Fin cfg0.N, win0_5.index t = ![q.val, 0, 0] :=
  (by decide +kernel : ∀ q : Fin 64, ∃ t : Fin grid0.N, win0_5.index t = ![q.val, 0, 0])

/-! ## The input blocks, read where the result's rows say -/

/-- Row `r` of point `t`'s path block is row `R = 256 · (block of t) + r` of the path argument. -/
theorem path_read (c : Dev nD) (t : Fin cfg0.N) (r : Fin 256) (p : Fin 32) (d : Fin 128) (R : Fin 16384)
    (hR : R.val = win0_5.index t (0 : Fin 3) * 256 + r.val) :
    iblk m c 1 t (ix3 r p d) = V m c main_arg1 (ix3 R p d) := by
  obtain ⟨-, -, e0, e1, e2, -⟩ := block_positions t
  show V m c main_arg1 (((cfg0.win 1).blk t).view.emb (ix3 r p d)) = V m c main_arg1 (ix3 R p d)
  refine congrArg (V m c main_arg1) (funext fun a => Fin.ext ?_)
  match a with
  | ⟨0, _⟩ => show win0_1.index t (0 : Fin 3) * 256 + 1 * r.val = R.val; omega
  | ⟨1, _⟩ => show win0_1.index t (1 : Fin 3) * 32 + 1 * p.val = p.val; omega
  | ⟨2, _⟩ => show win0_1.index t (2 : Fin 3) * 128 + 1 * d.val = d.val; omega

/-- Row `r` of point `t`'s agent block is row `R` of the agent argument. -/
theorem agent_read (c : Dev nD) (t : Fin cfg0.N) (r : Fin 256) (d : Fin 128) (R : Fin 16384)
    (hR : R.val = win0_5.index t (0 : Fin 3) * 256 + r.val) :
    iblk m c 0 t (ix2 r d) = V m c main_arg0 (ix2 R d) := by
  obtain ⟨e0, e1, -⟩ := block_positions t
  show V m c main_arg0 (((cfg0.win 0).blk t).view.emb (ix2 r d)) = V m c main_arg0 (ix2 R d)
  refine congrArg (V m c main_arg0) (funext fun a => Fin.ext ?_)
  match a with
  | ⟨0, _⟩ => show win0_0.index t (0 : Fin 2) * 256 + 1 * r.val = R.val; omega
  | ⟨1, _⟩ => show win0_0.index t (1 : Fin 2) * 128 + 1 * d.val = d.val; omega

/-- The first weight block is the whole first weight matrix. -/
theorem w1_read (c : Dev nD) (t : Fin cfg0.N) (d k : Fin 128) :
    iblk m c 2 t (ix2 d k) = V m c main_arg2 (ix2 d k) := by
  obtain ⟨-, -, -, -, -, e0, e1, -⟩ := block_positions t
  show V m c main_arg2 (((cfg0.win 2).blk t).view.emb (ix2 d k)) = V m c main_arg2 (ix2 d k)
  refine congrArg (V m c main_arg2) (funext fun a => Fin.ext ?_)
  match a with
  | ⟨0, _⟩ => show win0_2.index t (0 : Fin 2) * 128 + 1 * d.val = d.val; omega
  | ⟨1, _⟩ => show win0_2.index t (1 : Fin 2) * 128 + 1 * k.val = k.val; omega

/-- The second weight block is the whole second weight matrix. -/
theorem w2_read (c : Dev nD) (t : Fin cfg0.N) (d k : Fin 128) :
    iblk m c 3 t (ix2 d k) = V m c main_arg3 (ix2 d k) := by
  obtain ⟨-, -, -, -, -, -, -, e0, e1, -⟩ := block_positions t
  show V m c main_arg3 (((cfg0.win 3).blk t).view.emb (ix2 d k)) = V m c main_arg3 (ix2 d k)
  refine congrArg (V m c main_arg3) (funext fun a => Fin.ext ?_)
  match a with
  | ⟨0, _⟩ => show win0_3.index t (0 : Fin 2) * 128 + 1 * d.val = d.val; omega
  | ⟨1, _⟩ => show win0_3.index t (1 : Fin 2) * 128 + 1 * k.val = k.val; omega

/-- The one-row array the region finds under the scoring window is the host's re-laying of the one-column
    argument as a row. -/
theorem scoring_row (c : Dev nD) :
    (V m c main_v0 : S1x128.Idx → EReal) = shapeCast S1x128 (m ((c : Thread nD τ).loc main_arg4)) shapeCasts_S128x1_S1x128 := by
  dsimp only [Gen.V, Gen.hostOps0]
  after_results
  rfl

/-- Entry `k` of point `t`'s scoring row is entry `k` of the scoring argument's one column. -/
theorem scoring_read (c : Dev nD) (t : Fin cfg0.N) (k : Fin 128) :
    iblk m c 4 t (ix2 (0 : Fin 1) k) = (m ((c : Thread nD τ).loc main_arg4)) (ix2 k (0 : Fin 1)) := by
  obtain ⟨-, -, -, -, -, -, -, -, -, e0, e1, -⟩ := block_positions t
  show V m c main_v0 (((cfg0.win 4).blk t).view.emb (ix2 (0 : Fin 1) k)) = _
  have he : ((cfg0.win 4).blk t).view.emb (ix2 (0 : Fin 1) k) = ix2 (0 : Fin 1) k :=
    funext fun a => Fin.ext (by
      match a with
      | ⟨0, _⟩ => show win0_4.index t (0 : Fin 2) * 1 + 1 * 0 = 0; omega
      | ⟨1, _⟩ => show win0_4.index t (1 : Fin 2) * 128 + 1 * k.val = k.val; omega)
  rw [he]
  refine (congrFun (scoring_row m c) (ix2 (0 : Fin 1) k)).trans ?_
  exact shapeCast_apply _ shapeCasts_S128x1_S1x128 (ix2 (0 : Fin 1) k) (ix2 k (0 : Fin 1)) (by
    rw [Shape.rowMajor_val_two, Shape.rowMajor_val_two]
    show k.val * 1 + 0 = 0 * 128 + k.val
    omega)

/-! ## What a point writes back -/

/-- What point `t` writes back is block `t` of the row-wise specification of the arrays as the region finds them. -/
theorem flushed_eq (c : Dev nD) (t : Fin cfg0.N) :
    (dats m 0 c).flushed 5 t = ((cfg0.win 5).blk t).view.read (Elt Ideal)
      (Cert.AttnSpec.whole (V m c main_arg0) (V m c main_arg1) (V m c main_arg2) (V m c main_arg3)
        (m ((c : Thread nD τ).loc main_arg4))) := by
  rw [flushed5]
  unfold out0_5
  rw [View.canon_unit_zero zero3]
  simp only [View.ld_unit_zero (S := S256x32x128) zero3, View.ld_unit_zero (S := S256x128) zero2,
    View.ld_unit_zero (S := S128x128) zero2, View.ld_unit_zero (S := S1x128) zero2]
  obtain ⟨-, -, -, -, -, -, -, -, -, -, -, e0, e1, e2⟩ := block_positions t
  funext y
  obtain ⟨r, p, j, rfl⟩ : ∃ (r : Fin 256) (p : Fin 32) (j : Fin 128), y = ix3 r p j :=
    ⟨y 0, y 1, y 2, eq_ix3 (n0 := 256) (n1 := 32) (n2 := 128) y⟩
  have hlt : win0_5.index t (0 : Fin 3) * 256 + r.val < 16384 := by have := r.isLt; omega
  have hemb : ((cfg0.win 5).blk t).view.emb (ix3 r p j)
      = ix3 (⟨win0_5.index t (0 : Fin 3) * 256 + r.val, hlt⟩ : Fin 16384) p j :=
    funext fun a => Fin.ext (by
      match a with
      | ⟨0, _⟩ => show win0_5.index t (0 : Fin 3) * 256 + 1 * r.val = win0_5.index t (0 : Fin 3) * 256 + r.val; omega
      | ⟨1, _⟩ => show win0_5.index t (1 : Fin 3) * 32 + 1 * p.val = p.val; omega
      | ⟨2, _⟩ => show win0_5.index t (2 : Fin 3) * 128 + 1 * j.val = j.val; omega)
  show k0_pay1 (F := Ideal) (iblk m c 1 t) (iblk m c 0 t) (iblk m c 2 t) (iblk m c 3 t) (iblk m c 4 t) (ix3 r p j)
      = Cert.AttnSpec.whole (V m c main_arg0) (V m c main_arg1) (V m c main_arg2) (V m c main_arg3)
          (m ((c : Thread nD τ).loc main_arg4)) (((cfg0.win 5).blk t).view.emb (ix3 r p j))
  rw [hemb]
  refine (pay_row (iblk m c 1 t) (iblk m c 0 t) (iblk m c 2 t) (iblk m c 3 t) (iblk m c 4 t) r p j).trans ?_
  unfold Cert.AttnSpec.whole
  have h1 : (fun (q : Fin 32) (d : Fin 128) => iblk m c 1 t (ix3 r q d))
      = fun q d => V m c main_arg1 (ix3 (⟨win0_5.index t (0 : Fin 3) * 256 + r.val, hlt⟩ : Fin 16384) q d) :=
    funext fun q => funext fun d => path_read m c t r q d _ rfl
  have h0 : (fun (d : Fin 128) => iblk m c 0 t (ix2 r d))
      = fun d => V m c main_arg0 (ix2 (⟨win0_5.index t (0 : Fin 3) * 256 + r.val, hlt⟩ : Fin 16384) d) :=
    funext fun d => agent_read m c t r d _ rfl
  have h2 : (fun (d k : Fin 128) => iblk m c 2 t (ix2 d k)) = fun d k => V m c main_arg2 (ix2 d k) :=
    funext fun d => funext fun k => w1_read m c t d k
  have h3 : (fun (d k : Fin 128) => iblk m c 3 t (ix2 d k)) = fun d k => V m c main_arg3 (ix2 d k) :=
    funext fun d => funext fun k => w2_read m c t d k
  have h4 : (fun (k : Fin 128) => iblk m c 4 t (ix2 (0 : Fin 1) k))
      = fun k => (m ((c : Thread nD τ).loc main_arg4)) (ix2 k (0 : Fin 1)) :=
    funext fun k => scoring_read m c t k
  rw [h1, h0, h2, h3, h4]

/-! ## The cover -/

/-- An index of the result is in point `t`'s block iff each coordinate is in the block's range on its axis. -/
theorem mem_blk (t : Fin cfg0.N) (i : S16384x32x128.Idx) :
    i ∈ ((cfg0.win 5).blk t).view.set ↔ ∀ a : Fin 3, win0_5.index t a * S256x32x128.size a ≤ (i a).val
      ∧ (i a).val < win0_5.index t a * S256x32x128.size a + S256x32x128.size a := by
  show i ∈ ((View.whole main_v1).slice (win0_5.rect t)).set ↔ _
  rw [View.set_slice_whole, Rect.mem_set_unit]
  exact Iff.rfl

/-- Every index of the result lies in the block of the point that owns its batch row. -/
theorem cover (i : S16384x32x128.Idx) :
    ∃ t : Fin cfg0.N, (cfg0.win 5).flush t = true ∧ i ∈ ((cfg0.win 5).blk t).view.set := by
  have hi0 : (i 0).val < 16384 := (i 0).isLt
  have hi1 : (i 1).val < 32 := (i 1).isLt
  have hi2 : (i 2).val < 128 := (i 2).isLt
  obtain ⟨t, ht⟩ := block_onto ⟨(i 0).val / 256, by omega⟩
  have q0 : win0_5.index t (0 : Fin 3) = (i 0).val / 256 := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 256 ≤ (i 0).val ∧ (i 0).val < win0_5.index t (0 : Fin 3) * 256 + 256
    omega
  | ⟨1, _⟩ =>
    show win0_5.index t (1 : Fin 3) * 32 ≤ (i 1).val ∧ (i 1).val < win0_5.index t (1 : Fin 3) * 32 + 32
    omega
  | ⟨2, _⟩ =>
    show win0_5.index t (2 : Fin 3) * 128 ≤ (i 2).val ∧ (i 2).val < win0_5.index t (2 : Fin 3) * 128 + 128
    omega

/-! ## The array after the run, and the run -/

/-- After the run the result array is the row-wise specification of the five arguments as launched. -/
theorem final (c : Dev nD) :
    (dats m 0 c).arrAt 5 cfg0.N
      = Cert.AttnSpec.whole (m ((c : Thread nD τ).loc main_arg0)) (m ((c : Thread nD τ).loc main_arg1))
          (m ((c : Thread nD τ).loc main_arg2)) (m ((c : Thread nD τ).loc main_arg3))
          (m ((c : Thread nD τ).loc main_arg4)) := by
  refine ((dats m 0 c).arrAt_eq_of_cover 5 _ (fun t _ => flushed_eq m c t) cover).trans ?_
  rw [V_main_arg0, V_main_arg1, V_main_arg2, V_main_arg3]

/-- Every weakly fair execution of the kernel's program ends with the result array at the specification of the
    arguments, and the arguments unchanged. -/
theorem run : θ_run defs (onTc (τ := τ) (main (F := Ideal))) ⟨m, fun _ => 0, ρ⟩ fun r => ∀ c : Dev nD,
      r.2.mem ((c : Thread nD τ).loc main_v1)
        = Cert.AttnSpec.whole (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefRow.lean ====
/-
  The reference, one batch row at a time: it is the row-wise specification.

  The reference's host operations are read one at a time at an index (the generated read-at-an-index lemmas), and
  grouped here into the same stages as the specification: the hidden vector and the score of (row B, path p) — two
  `dot_general`s, a sum, `tanh`, and a third `dot_general` against the one-column scoring vector; the row's largest
  score — a max-reduce from −∞ followed by one more `max` with −∞, which changes nothing because a fold of `max` from
  −∞ is already above −∞; the shifted exponentials; the softmax weights — the host's sum starts from a zero word,
  which adds nothing; and the weighted mean minus the path's own weighted vector, where the reference multiplies
  weight × path inside the sum and path × weight outside it, the same product on the extended reals.
-/
import proofs.«140785_j82952998355465_2_alg».proof.Proof.Gen.ReferenceIdeal.Read
import proofs.«140785_j82952998355465_2_alg».proof.Proof.AttnSpec
import Idealize.ShloMosaic.PureOps.Reduce

noncomputable section

namespace Cert.ReferenceIdeal.RowValue

open Cert.ReferenceIdeal Cert.ReferenceIdeal.Gen Cert.ReferenceIdeal.Read
open Idealize.ShloMosaic Idealize.ShloMosaic.ValueIdx

/-! ## The hidden vector and the score -/

/-- Path (B, p) times the first weight matrix, at entry i. -/
theorem pathProduct_apply (x1 : (⟨S16384x32x128, .f32⟩ : BufTy).Contents (Elt Ideal)) (x2 : (⟨S128x128, .f32⟩ : BufTy).Contents (Elt Ideal))
    (B : Fin 16384) (p : Fin 32) (i : Fin 128) :
    val_main_v0 (F := Ideal) x1 x2 (ix3 B p i) = ∑ d : Fin 128, x1 (ix3 B p d) * x2 (ix2 d i) := by
  rw [val_main_v0_apply]
  refine Finset.sum_congr rfl fun k _ => ?_
  have e1 : lidx_main_v0 (ix3 B p i) k = ix3 B p k := funext fun a => Fin.ext (by
    match a with
    | ⟨0, _⟩ => rfl
    | ⟨1, _⟩ => rfl
    | ⟨2, _⟩ => rfl)
  have e2 : ridx_main_v0 (ix3 B p i) k = ix2 k i := funext fun a => Fin.ext (by
    match a with
    | ⟨0, _⟩ => rfl
    | ⟨1, _⟩ => rfl)
  rw [e1, e2]

/-- Agent row B times the second weight matrix, laid along the paths, at (B, p, i). -/
theorem agentProduct_apply (x0 : (⟨S16384x128, .f32⟩ : BufTy).Contents (Elt Ideal)) (x3 : (⟨S128x128, .f32⟩ : BufTy).Contents (Elt Ideal))
    (B : Fin 16384) (p : Fin 32) (i : Fin 128) :
    val_main_v3 (F := Ideal) x0 x3 (ix3 B p i) = ∑ d : Fin 128, x0 (ix2 B d) * x3 (ix2 d i) := by
  rw [val_main_v3_apply, val_main_v2_apply, val_main_v1_apply]
  refine Finset.sum_congr rfl fun k _ => ?_
  have e1 : lidx_main_v1 (idx_main_v2 (idx_main_v3 (ix3 B p i))) k = ix2 B k := funext fun a => Fin.ext (by
    match a with
    | ⟨0, _⟩ => rfl
    | ⟨1, _⟩ => rfl)
  have e2 : ridx_main_v1 (idx_main_v2 (idx_main_v3 (ix3 B p i))) k = ix2 k i := funext fun a => Fin.ext (by
    match a with
    | ⟨0, _⟩ => rfl
    | ⟨1, _⟩ => rfl)
  rw [e1, e2]

/-- The hidden vector of (B, p) at entry i. -/
theorem hidden_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (B : Fin 16384) (p : Fin 32) (i : Fin 128) :
    val_main_v5 (F := Ideal) x0 x1 x2 x3 (ix3 B p i)
      = Ideal.tanh ((∑ d : Fin 128, x1 (ix3 B p d) * x2 (ix2 d i)) + ∑ d : Fin 128, x0 (ix2 B d) * x3 (ix2 d i)) := by
  rw [val_main_v5_apply, val_main_v4_apply, pathProduct_apply, agentProduct_apply]
  rfl

/-- The reshape that drops the score's unit axis reads (B, p) at (B, p, 0). -/
theorem dropUnit_idx (B : Fin 16384) (p : Fin 32) : idx_main_v7 (ix2 B p) = ix3 B p (0 : Fin 1) :=
  funext fun a => Fin.ext (by
    match a with
    | ⟨0, _⟩ => show (B.val * 32 + p.val) / 32 = B.val; have := p.isLt; omega
    | ⟨1, _⟩ => show (B.val * 32 + p.val) / 1 % 32 = p.val; have := p.isLt; omega
    | ⟨2, _⟩ => rfl)

/-- The score of (row B, path p) is the specification's score of row B's slices. -/
theorem score_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) (B : Fin 16384) (p : Fin 32) :
    val_main_v7 (F := Ideal) x0 x1 x2 x3 x4 (ix2 B p)
      = Cert.AttnSpec.score (fun q d => x1 (ix3 B q d)) (fun d => x0 (ix2 B d)) (fun d k => x2 (ix2 d k))
          (fun d k => x3 (ix2 d k)) (fun k => x4 (ix2 k (0 : Fin 1))) p := by
  rw [val_main_v7_apply, dropUnit_idx, val_main_v6_apply]
  unfold Cert.AttnSpec.score
  refine Finset.sum_congr rfl fun i _ => ?_
  have e1 : lidx_main_v6 (ix3 B p (0 : Fin 1)) i = ix3 B p i := funext fun a => Fin.ext (by
    match a with
    | ⟨0, _⟩ => rfl
    | ⟨1, _⟩ => rfl
    | ⟨2, _⟩ => rfl)
  have e2 : ridx_main_v6 (ix3 B p (0 : Fin 1)) i = ix2 i (0 : Fin 1) := funext fun a => Fin.ext (by
    match a with
    | ⟨0, _⟩ => rfl
    | ⟨1, _⟩ => rfl)
  rw [e1, e2, hidden_apply]

/-! ## The largest score of a row -/

/-- The max-reduce over the paths of row B: the fold of `max` from −∞ over the row's scores. -/
theorem rowMax_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) (B : Fin 16384) :
    val_main_v8 (F := Ideal) x0 x1 x2 x3 x4 (ix1 B) = Cert.AttnSpec.top (fun p => val_main_v7 (F := Ideal) x0 x1 x2 x3 x4 (ix2 B p)) := by
  unfold val_main_v8
  generalize val_main_v7 (F := Ideal) x0 x1 x2 x3 x4 = y
  have hred : S16384x32.Reduces [1] S16384 := by decide
  have key := Host.reduce_eq_fold_single (FloatOps.maximumf (F := Ideal) (φ := .f32)) y (val_main_cst (F := Ideal))
    reducesTo_S16384x32_S16384_d1 hred h_S_ (ix1 B)
  refine key.trans ?_
  unfold Cert.AttnSpec.top
  refine congrArg (fun f : Fin 32 → EReal => (Finset.univ : Finset (Fin 32)).fold max Cert.AttnSpec.floorWord f)
    (funext fun p => congrArg y (funext fun a => Fin.ext ?_))
  match a with
  | ⟨0, _⟩ => rfl
  | ⟨1, _⟩ => rfl

/-- One more `max` with −∞ leaves the fold as it is: a fold of `max` from −∞ is above −∞. -/
theorem rowTop_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) (B : Fin 16384) :
    val_main_v10 (F := Ideal) x0 x1 x2 x3 x4 (ix1 B) = Cert.AttnSpec.top (fun p => val_main_v7 (F := Ideal) x0 x1 x2 x3 x4 (ix2 B p)) := by
  rw [val_main_v10_apply, val_main_v9_apply, val_main_cst_0_apply, rowMax_apply]
  show max Cert.AttnSpec.floorWord (Cert.AttnSpec.top _) = _
  exact max_eq_right ((Finset.le_fold_max _).mpr (Or.inl le_rfl))

/-! ## Exponentials and weights -/

/-- The shifted exponential of (row B, path p). -/
theorem expd_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) (B : Fin 16384) (p : Fin 32) :
    val_main_v14 (F := Ideal) x0 x1 x2 x3 x4 (ix2 B p)
      = Cert.AttnSpec.expd (fun q => val_main_v7 (F := Ideal) x0 x1 x2 x3 x4 (ix2 B q)) p := by
  rw [val_main_v14_apply, val_main_v13_apply, val_main_v12_apply, val_main_v11_apply]
  have e : idx_main_v11 (idx_main_v12 (ix2 B p)) = ix1 B := funext fun a => Fin.ext (by
    match a with
    | ⟨0, _⟩ => rfl)
  rw [e, rowTop_apply]
  rfl

/-- The weight of (row B, path p): its exponential over the row's sum (the host's sum starts from the zero word). -/
theorem prob_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) (B : Fin 16384) (p : Fin 32) :
    val_main_v18 (F := Ideal) x0 x1 x2 x3 x4 (ix2 B p)
      = Ideal.div (val_main_v14 (F := Ideal) x0 x1 x2 x3 x4 (ix2 B p)) (∑ q : Fin 32, val_main_v14 (F := Ideal) x0 x1 x2 x3 x4 (ix2 B q)) := by
  rw [val_main_v18_apply, val_main_v17_apply, val_main_v16_apply]
  have e : idx_main_v16 (idx_main_v17 (ix2 B p)) = ix1 B := funext fun a => Fin.ext (by
    match a with
    | ⟨0, _⟩ => rfl)
  rw [e, val_main_v15_apply, val_main_cst_1_apply]
  have es : ∀ q : Fin 32, idx_main_v15 (ix1 B) q = ix2 B q := fun q => funext fun a => Fin.ext (by
    match a with
    | ⟨0, _⟩ => rfl
    | ⟨1, _⟩ => rfl)
  simp only [es]
  show Ideal.div _ (Ideal.ofBits .f32 0x00000000#32 + _) = _
  rw [Ideal.ofBits_zero_f32, zero_add]

/-! ## The weighted mean minus the path's own weighted vector -/

/-- The weight laid along the entries, read at (B, p, j) by either of its two broadcasts. -/
theorem weightAt_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) (B : Fin 16384) (p : Fin 32) (j : Fin 128) :
    val_main_v20 (F := Ideal) x0 x1 x2 x3 x4 (ix3 B p j) = val_main_v18 (F := Ideal) x0 x1 x2 x3 x4 (ix2 B p)
    ∧ val_main_v24 (F := Ideal) x0 x1 x2 x3 x4 (ix3 B p j) = val_main_v18 (F := Ideal) x0 x1 x2 x3 x4 (ix2 B p) := by
  have e : idx_main_v19 (idx_main_v20 (ix3 B p j)) = ix2 B p := funext fun a => Fin.ext (by
    match a with
    | ⟨0, _⟩ => rfl
    | ⟨1, _⟩ => rfl)
  have e' : idx_main_v19 (idx_main_v24 (ix3 B p j)) = ix2 B p := funext fun a => Fin.ext (by
    match a with
    | ⟨0, _⟩ => rfl
    | ⟨1, _⟩ => rfl)
  constructor
  · rw [val_main_v20_apply, val_main_v19_apply, e]
  · rw [val_main_v24_apply, val_main_v19_apply, e']

/-- The result at (B, p, j): the sum over the paths of path · weight at entry j, minus path p's own product. -/
theorem out_apply (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) (B : Fin 16384) (p : Fin 32) (j : Fin 128) :
    val_main_v27 (F := Ideal) x0 x1 x2 x3 x4 (ix3 B p j)
      = (∑ q : Fin 32, x1 (ix3 B q j) * val_main_v18 (F := Ideal) x0 x1 x2 x3 x4 (ix2 B q))
        - x1 (ix3 B p j) * val_main_v18 (F := Ideal) x0 x1 x2 x3 x4 (ix2 B p) := by
  rw [val_main_v27_apply, val_main_v26_apply, val_main_v23_apply, val_main_v25_apply,
    (weightAt_apply x0 x1 x2 x3 x4 B p j).2]
  have e : idx_main_v23 (idx_main_v26 (ix3 B p j)) = ix2 B j := funext fun a => Fin.ext (by
    match a with
    | ⟨0, _⟩ => rfl
    | ⟨1, _⟩ => rfl)
  rw [e, val_main_v22_apply, val_main_cst_2_apply]
  have es : ∀ q : Fin 32, idx_main_v22 (ix2 B j) q = ix3 B q j := fun q => funext fun a => Fin.ext (by
    match a with
    | ⟨0, _⟩ => rfl
    | ⟨1, _⟩ => rfl
    | ⟨2, _⟩ => rfl)
  simp only [es, val_main_v21_apply, (weightAt_apply x0 x1 x2 x3 x4 B _ j).1]
  show (Ideal.ofBits .f32 0x00000000#32 + ∑ q : Fin 32, val_main_v18 (F := Ideal) x0 x1 x2 x3 x4 (ix2 B q) * x1 (ix3 B q j))
      - x1 (ix3 B p j) * val_main_v18 (F := Ideal) x0 x1 x2 x3 x4 (ix2 B p) = _
  rw [Ideal.ofBits_zero_f32, zero_add]
  exact congrArg (fun t => t - x1 (ix3 B p j) * val_main_v18 (F := Ideal) x0 x1 x2 x3 x4 (ix2 B p))
    (Finset.sum_congr rfl fun q _ => mul_comm _ _)

/-! ## The whole result -/

/-- The reference's result array is the row-wise specification of its five arguments. -/
theorem result_eq (x0 : (⟨S16384x128, .f32⟩ : BufTy).Contents (Elt Ideal)) (x1 : (⟨S16384x32x128, .f32⟩ : BufTy).Contents (Elt Ideal))
    (x2 x3 : (⟨S128x128, .f32⟩ : BufTy).Contents (Elt Ideal)) (x4 : (⟨S128x1, .f32⟩ : BufTy).Contents (Elt Ideal)) :
    val_main_v27 (F := Ideal) x0 x1 x2 x3 x4 = Cert.AttnSpec.whole x0 x1 x2 x3 x4 := by
  funext i
  obtain ⟨B, p, j, rfl⟩ : ∃ (B : Fin 16384) (p : Fin 32) (j : Fin 128), i = ix3 B p j := ⟨i 0, i 1, i 2, eq_ix3 i⟩
  rw [out_apply]
  simp only [prob_apply, expd_apply, score_apply]
  rfl

end Cert.ReferenceIdeal.RowValue

end
-- ==== Proof.lean ====
/-
  Additive attention over the 32 paths of each of 16384 batch rows, as a pipelined kernel and as a plain array
  program, are the same function on the extended reals.

  For one batch row with path vectors L p, agent vector a, weight matrices W1, W2 and scoring vector v, both compute

    score p = Σ_i tanh (Σ_d L p d · W1 d i + Σ_d a d · W2 d i) · v i,
    prob p  = exp (score p − max_q score q) / Σ_q exp (score q − max_q score q),
    out p j = Σ_q L q j · prob q − L p j · prob p.

  The kernel works on 256 rows per grid point, rounds its matrix operands to a shorter float format first (the
  identity at the ideal values), takes its products into zero accumulators and its sums by lane reductions; the
  reference takes them by contractions and host reductions, starts its sums from a zero word, applies one more
  maximum with −∞, and writes one of its two products with the factors the other way round. None of these differences
  survives at the ideal values: a zero start adds nothing, a maximum with −∞ changes nothing above −∞, and
  multiplication of extended reals commutes. No step uses that the inputs are finite.

  The row-wise specification is `Cert.AttnSpec`; the kernel's stored block read row by row is `KernelRow`, carried to the
  whole result array in `Blocks`; the reference read row by row is `RefRow`. The kernel's program was not rewritten
  by idealization, so there is nothing to preserve beyond reading its own text at the ideal values.
-/
import proofs.«140785_j82952998355465_2_alg».proof.Defs
import proofs.«140785_j82952998355465_2_alg».proof.Proof.Gen.Kernel
import proofs.«140785_j82952998355465_2_alg».proof.Proof.Gen.Kernel.Skeleton
import proofs.«140785_j82952998355465_2_alg».proof.Proof.Gen.Kernel.Launch
import proofs.«140785_j82952998355465_2_alg».proof.Proof.Gen.Kernel.Points
import proofs.«140785_j82952998355465_2_alg».proof.Proof.Gen.Kernel.Frame
import proofs.«140785_j82952998355465_2_alg».proof.Proof.Gen.KernelIdeal
import proofs.«140785_j82952998355465_2_alg».proof.Proof.Gen.KernelIdeal.Skeleton
import proofs.«140785_j82952998355465_2_alg».proof.Proof.Gen.KernelIdeal.Launch
import proofs.«140785_j82952998355465_2_alg».proof.Proof.Gen.KernelIdeal.Points
import proofs.«140785_j82952998355465_2_alg».proof.Proof.Gen.KernelIdeal.Frame
import proofs.«140785_j82952998355465_2_alg».proof.Proof.Gen.ReferenceIdeal
import proofs.«140785_j82952998355465_2_alg».proof.Proof.Gen.Pre_finite_inputs
import proofs.«140785_j82952998355465_2_alg».proof.Proof.Gen.KernelIdeal.Value
import proofs.«140785_j82952998355465_2_alg».proof.Proof.Gen.ReferenceIdeal.Run
import proofs.«140785_j82952998355465_2_alg».proof.Proof.Gen.ReferenceIdeal.Read
import proofs.«140785_j82952998355465_2_alg».proof.Proof.Blocks
import proofs.«140785_j82952998355465_2_alg».proof.Proof.RefRow
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of array operations: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel ends with its result array at the row-wise
    specification of the arguments (the blocks tile the array), and the reference ends with its result array at the
    same specification (operation by operation); the arguments are unchanged on both sides. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RowValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
